-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S256x1 .f32) (main_arg9 : FVec F S1 .f32) (main_v33 : IVec S_ 1) : IVec S_ 1 :=
  let main_v34 : FVec F S256x1 .f32 := Host.absf main_arg8
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x256 .f32) (main_arg7 : FVec F S256 .f32) (main_arg8 : FVec F S256x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x256 .f32) (main_arg7 : FVec F S256 .f32) (main_arg8 : FVec F S256x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S1x256 : Shape := ⟨2, ![1, 256]⟩
abbrev S1x1 : Shape := ⟨2, ![1, 1]⟩
abbrev S100000x1 : Shape := ⟨2, ![100000, 1]⟩
abbrev S5000x1 : Shape := ⟨2, ![5000, 1]⟩
abbrev S5000x256 : Shape := ⟨2, ![5000, 256]⟩

abbrev nBuf : Space → Nat
  | .hbm => 101
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S1x256, .f32⟩
  | .hbm, ⟨89, _⟩ => ⟨S1x1, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S1, .f32⟩
  | .hbm, ⟨94, _⟩ => ⟨S1x1, .f32⟩
  | .hbm, ⟨95, _⟩ => ⟨S1x1, .f32⟩
  | .hbm, ⟨96, _⟩ => ⟨S_, .f32⟩
  | .hbm, ⟨97, _⟩ => ⟨S1x1, .f32⟩
  | .hbm, ⟨98, _⟩ => ⟨S1x1, .f32⟩
  | .hbm, ⟨99, _⟩ => ⟨S100000x1, .f32⟩
  | .hbm, ⟨100, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x256, .f32⟩
  | .local _ .vmem, ⟨23, _⟩ => ⟨S1x256, .f32⟩
  | .local _ .vmem, ⟨24, _⟩ => ⟨S256x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S256_S1x256 : S256.ShapeCasts S1x256
  shapeCasts_S1_S1x1 : S1.ShapeCasts S1x1
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  reducesTo_S100000x1_S1_d0 : S100000x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x256_S5000x256_1_0_0_1_n_n_wf : DotDims.WF S5000x64 S64x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x1.size a ≤ S256x1.size a
  hwx4_3 : ∀ i : grid4.Coords, EltTy.bits .f32 = 32 ∨ (Rect.block (s := S256x1) S256x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S100000x1.size a
  hwx4_5 : ∀ i : grid4.Coords, EltTy.bits .f32 = 32 ∨ (Rect.block (s := S100000x1) S5000x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S256x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x256 : Shape := ⟨2, ![64, 256]⟩
abbrev S256 : Shape := ⟨1, ![256]⟩
abbrev S256x1 : Shape := ⟨2, ![256, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x256 : Shape := ⟨2, ![100000, 256]⟩
abbrev S1x256 : Shape := ⟨2, ![1, 256]⟩
abbrev S100000x1 : Shape := ⟨2, ![100000, 1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000x64, .f32⟩
  | .hbm, ⟨95, _⟩ => ⟨S100000x64, .f32⟩
  | .hbm, ⟨96, _⟩ => ⟨S100000x256, .f32⟩
  | .hbm, ⟨97, _⟩ => ⟨S1x256, .f32⟩
  | .hbm, ⟨98, _⟩ => ⟨S100000x256, .f32⟩
  | .hbm, ⟨99, _⟩ => ⟨S100000x256, .f32⟩
  | .hbm, ⟨100, _⟩ => ⟨S_, .f32⟩
  | .hbm, ⟨101, _⟩ => ⟨S100000x256, .f32⟩
  | .hbm, ⟨102, _⟩ => ⟨S100000x256, .f32⟩
  | .hbm, ⟨103, _⟩ => ⟨S100000x1, .f32⟩
  | .hbm, ⟨104, _⟩ => ⟨S1x1, .f32⟩
  | .hbm, ⟨105, _⟩ => ⟨S100000x1, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S1, .f32⟩
  | .hbm, ⟨110, _⟩ => ⟨S1x1, .f32⟩
  | .hbm, ⟨111, _⟩ => ⟨S1x1, .f32⟩
  | .hbm, ⟨112, _⟩ => ⟨S_, .f32⟩
  | .hbm, ⟨113, _⟩ => ⟨S1x1, .f32⟩
  | .hbm, ⟨114, _⟩ => ⟨S1x1, .f32⟩
  | .hbm, ⟨115, _⟩ => ⟨S100000x1, .f32⟩
  | .hbm, ⟨116, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_12 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_13 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1x1 : S_.BroadcastsInDim S1x1 (![] : Fin 0 → Fin S1x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x256_S100000x256_1_0_0_1_n_n_wf : DotDims.WF S100000x64 S64x256 S100000x256 [1] [0] [0] [1] [] []
  dot_S100000x256_S256x1_S100000x1_1_0_0_1_n_n_wf : DotDims.WF S100000x256 S256x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x256_S100000x256_1_0_0_1_n_n : DotDims S100000x64 S64x256 S100000x256 where
  lhsContracting := [1]
  rhsContracting := [0]
  lhsNonContracting := [0]
  rhsNonContracting := [1]
  lhsBatch := []
  rhsBatch := []
  wf := dot_S100000x64_S64x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.KHost.lean ====
/-
  The stretches of host operations of the idealized kernel's @main, read against the reference's stages.

  Between its five regions the kernel's @main runs the same host operations as the reference: the edge lists with the
  self loops appended, the degree and the symmetric normalisation, and around each message-passing layer the gather of
  the transformed features at the source nodes, the scaling, and the scatter-add at the target nodes; at the end the
  division by the clamped norm. Each stretch is read here from ARBITRARY buffer contents W: if the buffers the stretch
  reads hold the reference's stages, the buffer it writes holds the reference's next stage — the two lines are the same
  operations applied to the same values. Also here: the list of buffers each stretch writes, so that any other buffer
  is known to keep its contents.
-/
import proofs.«178158_j10213432229995_1_alg».proof.Proof.Gen.KernelIdeal.Frame
import proofs.«178158_j10213432229995_1_alg».proof.Proof.LibDense
import proofs.«178158_j10213432229995_1_alg».proof.Proof.RefRead
import proofs.«178158_j10213432229995_1_alg».proof.Proof.LibResultsInside
import proofs.«178158_j10213432229995_1_alg».proof.Proof.LibTypedRef
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Idealize.ShloMosaic.StableHlo

/-! ## What each stretch writes -/

/-- The buffers the operations of `hostOps0` write. -/
abbrev wr0l : List (Ref sig .tc) := [main_v0, main_v1, main_v2, main_v3, main_v4, main_v5, main_v6, main_cst, main_v7, main_cst_0, main_v8, main_v9, main_v10, main_cst_1, main_v11, main_v12, main_v13, main_cst_2]
theorem wr0 : (hostOps0 (F := Ideal)).Forall fun op => op.writes ⊆ (wr0l.map (Proc.devRef (τ := τ) .tc)).toFinset := by
  simp only [hostOps0, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- The buffers the operations of `hostOps0_1` write. -/
abbrev wr01l : List (Ref sig .tc) := [main_call0_v0, main_call0_v1, main_v14]
theorem wr01 : (hostOps0_1 (F := Ideal)).Forall fun op => op.writes ⊆ (wr01l.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- The buffers the operations of `hostOps0_2` write. -/
abbrev wr02l : List (Ref sig .tc) := [main_c, main_v15, main_v16, main_c_3, main_v17, main_v18, main_v19, main_v20, main_v21, main_c_4, main_v22, main_v23, main_c_5, main_v24, main_v25, main_v26, main_v27, main_v28, main_v29]
theorem wr02 : (hostOps0_2 (F := Ideal)).Forall fun op => op.writes ⊆ (wr02l.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- The buffers the operations of `hostOps1` write. -/
abbrev wr1l : List (Ref sig .tc) := [main_c_6, main_v31, main_v32, main_c_7, main_v33, main_v34, main_v35, main_v36, main_v37, main_v38, main_v39, main_v40, main_cst_8, main_v41, main_v42, main_v43, main_v44]
theorem wr1 : (hostOps1 (F := Ideal)).Forall fun op => op.writes ⊆ (wr1l.map (Proc.devRef (τ := τ) .tc)).toFinset := by
  simp only [hostOps1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- The buffers the operations of `hostOps3` write. -/
abbrev wr3l : List (Ref sig .tc) := [main_c_9, main_v47, main_v48, main_c_10, main_v49, main_v50, main_v51, main_v52, main_v53, main_v54, main_v55, main_v56, main_cst_11, main_v57, main_v58, main_v59, main_v60]
theorem wr3 : (hostOps3 (F := Ideal)).Forall fun op => op.writes ⊆ (wr3l.map (Proc.devRef (τ := τ) .tc)).toFinset := by
  simp only [hostOps3, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-- The buffers the operations of `hostOps4` write. -/
abbrev wr4l : List (Ref sig .tc) := [main_v62, main_v63]
theorem wr4 : (hostOps4 (F := Ideal)).Forall fun op => op.writes ⊆ (wr4l.map (Proc.devRef (τ := τ) .tc)).toFinset := by
  simp only [hostOps4, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-! ## The first stretch: the edge lists, the degree, its comparison with zero and its reciprocal square root -/

variable (W : Valuation τ sig (Elt Ideal))

set_option maxHeartbeats 4000000 in
/-- The source nodes: the first row of the edge index with the self loops appended. -/
theorem h0_v3 : after hostOps0 W (Proc.devRef .tc main_v3) = Cert.ReferenceIdeal.Read.val_main_v3 (W (Proc.devRef .tc main_arg1)) := by
  after_results_simp
  results_inside
  rfl

set_option maxHeartbeats 4000000 in
/-- The target nodes: the second row of the edge index with the self loops appended. -/
theorem h0_v6 : after hostOps0 W (Proc.devRef .tc main_v6) = Cert.ReferenceIdeal.Read.val_main_v6 (W (Proc.devRef .tc main_arg1)) := by
  after_results_simp
  results_inside
  rfl

set_option maxHeartbeats 4000000 in
/-- Which nodes have positive degree. -/
theorem h0_v12 : after hostOps0 W (Proc.devRef .tc main_v12) = Cert.ReferenceIdeal.Read.val_main_v12 (W (Proc.devRef .tc main_arg1)) := by
  after_results_simp
  results_inside
  rfl

set_option maxHeartbeats 4000000 in
/-- The reciprocal square root of the degree. -/
theorem h0_v13 : after hostOps0 W (Proc.devRef .tc main_v13) = Cert.ReferenceIdeal.Read.val_main_v13 (W (Proc.devRef .tc main_arg1)) := by
  after_results_simp
  results_inside
  rfl

set_option maxHeartbeats 4000000 in
/-- The zero the masked entries take. -/
theorem h0_cst2 : after hostOps0 W (Proc.devRef .tc main_cst_2) = Cert.ReferenceIdeal.Read.val_main_cst_2 (F := Ideal) := by
  after_results_simp
  rfl

/-! ## The outlined select: a value carried to a buffer whose type is the value's, or back, is the value -/

theorem ofBuf_main_v12 (h1 : main_v12.ty = (⟨S100000, .i1⟩ : BufTy)) (h2 : main_v12.space ≠ .host) (h3 : main_v12.isScoped = false)
    (v : main_v12.ty.Contents (Elt Ideal)) : (TRef.of (T := ⟨S100000, .i1⟩) main_v12 h1 h2 h3).ofBuf v = v := rfl
theorem ofBuf_main_v13 (h1 : main_v13.ty = (⟨S100000, .f32⟩ : BufTy)) (h2 : main_v13.space ≠ .host) (h3 : main_v13.isScoped = false)
    (v : main_v13.ty.Contents (Elt Ideal)) : (TRef.of (T := ⟨S100000, .f32⟩) main_v13 h1 h2 h3).ofBuf v = v := rfl
theorem ofBuf_main_cst_2 (h1 : main_cst_2.ty = (⟨S_, .f32⟩ : BufTy)) (h2 : main_cst_2.space ≠ .host) (h3 : main_cst_2.isScoped = false)
    (v : main_cst_2.ty.Contents (Elt Ideal)) : (TRef.of (T := ⟨S_, .f32⟩) main_cst_2 h1 h2 h3).ofBuf v = v := rfl
theorem toBuf_main_v14 (h1 : main_v14.ty = (⟨S100000, .f32⟩ : BufTy)) (h2 : main_v14.space ≠ .host) (h3 : main_v14.isScoped = false)
    (v : (⟨S100000, .f32⟩ : BufTy).Contents (Elt Ideal)) : (TRef.of (T := ⟨S100000, .f32⟩) main_v14 h1 h2 h3).toBuf v = v := rfl

set_option maxHeartbeats 4000000 in
/-- The normalisation per node: the reciprocal square root of the degree where the degree is positive, else zero. -/
theorem h01_v14 (x1 : (⟨S2x1600000, .i32⟩ : BufTy).Contents (Elt Ideal)) (h12 : W (Proc.devRef .tc main_v12) = Cert.ReferenceIdeal.Read.val_main_v12 x1)
    (h13 : W (Proc.devRef .tc main_v13) = Cert.ReferenceIdeal.Read.val_main_v13 x1) (hc : W (Proc.devRef .tc main_cst_2) = Cert.ReferenceIdeal.Read.val_main_cst_2 (F := Ideal)) :
    after hostOps0_1 W (Proc.devRef .tc main_v14) = Cert.ReferenceIdeal.Read.val_main_v14 x1 := by
  after_results_simp
  simp only [TRef.ofBuf_toBuf]
  rw [ofBuf_main_v12, ofBuf_main_v13, ofBuf_main_cst_2, toBuf_main_v14]
  rw [h12, h13, hc]
  rfl
  all_goals first | rfl | decide

/-! ## The third stretch: the normalisation per edge -/

set_option maxHeartbeats 4000000 in
/-- The per-edge coefficient: the normalisation at the source node times the normalisation at the target node. -/
theorem h02_v29 (x1 : (⟨S2x1600000, .i32⟩ : BufTy).Contents (Elt Ideal)) (h14 : W (Proc.devRef .tc main_v14) = Cert.ReferenceIdeal.Read.val_main_v14 x1) (h3 : W (Proc.devRef .tc main_v3) = Cert.ReferenceIdeal.Read.val_main_v3 x1) (h6 : W (Proc.devRef .tc main_v6) = Cert.ReferenceIdeal.Read.val_main_v6 x1) :
    after hostOps0_2 W (Proc.devRef .tc main_v29) = Cert.ReferenceIdeal.Read.val_main_v29 x1 := by
  after_results_simp
  rw [h14, h3, h6]
  rfl

/-! ## Around the first layer's aggregation -/

set_option maxHeartbeats 4000000 in
/-- The first layer's aggregation: the transformed features gathered at the source nodes, scaled per edge, and added
    up at the target nodes. -/
theorem h1_v43 (x0 : (⟨S100000x64, .f32⟩ : BufTy).Contents (Elt Ideal)) (x1 : (⟨S2x1600000, .i32⟩ : BufTy).Contents (Elt Ideal)) (x2 : (⟨S64x64, .f32⟩ : BufTy).Contents (Elt Ideal))
    (h30 : W (Proc.devRef .tc main_v30) = Cert.ReferenceIdeal.Read.val_main_v30 x0 x2) (h3 : W (Proc.devRef .tc main_v3) = Cert.ReferenceIdeal.Read.val_main_v3 x1) (h6 : W (Proc.devRef .tc main_v6) = Cert.ReferenceIdeal.Read.val_main_v6 x1)
    (h29 : W (Proc.devRef .tc main_v29) = Cert.ReferenceIdeal.Read.val_main_v29 x1) :
    after hostOps1 W (Proc.devRef .tc main_v43) = Cert.ReferenceIdeal.Read.val_main_v43 x0 x1 x2 := by
  after_results_simp
  rw [h30, h3, h6, h29]
  rfl

set_option maxHeartbeats 4000000 in
/-- The first bias as a [1, 64] row. -/
theorem h1_v44 : after hostOps1 W (Proc.devRef .tc main_v44) = shapeCast S1x64 (W (Proc.devRef .tc main_arg3)) shapeCasts_S64_S1x64 := by
  after_results_simp
  rfl

/-! ## Around the second layer's aggregation -/

set_option maxHeartbeats 4000000 in
/-- The second layer's aggregation. -/
theorem h3_v59 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (h46 : W (Proc.devRef .tc main_v46) = Cert.ReferenceIdeal.Read.val_main_v48 x0 x1 x2 x3 x4) (h3 : W (Proc.devRef .tc main_v3) = Cert.ReferenceIdeal.Read.val_main_v3 x1) (h6 : W (Proc.devRef .tc main_v6) = Cert.ReferenceIdeal.Read.val_main_v6 x1)
    (h29 : W (Proc.devRef .tc main_v29) = Cert.ReferenceIdeal.Read.val_main_v29 x1) :
    after hostOps3 W (Proc.devRef .tc main_v59) = Cert.ReferenceIdeal.Read.val_main_v61 x0 x1 x2 x3 x4 := by
  after_results_simp
  rw [h46, h3, h6, h29]
  rfl

set_option maxHeartbeats 4000000 in
/-- The second bias as a [1, 64] row. -/
theorem h3_v60 : after hostOps3 W (Proc.devRef .tc main_v60) = shapeCast S1x64 (W (Proc.devRef .tc main_arg5)) shapeCasts_S64_S1x64 := by
  after_results_simp
  rfl

/-! ## Before the head: its two biases as rows -/

theorem h4_v62 : after hostOps4 W (Proc.devRef .tc main_v62) = shapeCast S1x256 (W (Proc.devRef .tc main_arg7)) shapeCasts_S256_S1x256 := by
  after_results
  rfl

theorem h4_v63 : after hostOps4 W (Proc.devRef .tc main_v63) = shapeCast S1x1 (W (Proc.devRef .tc main_arg9)) shapeCasts_S1_S1x1 := by
  after_results
  rfl

/-! ## The tail: the column divided by its norm clamped below -/

set_option maxHeartbeats 4000000 in
theorem h5_v72 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x1, .f32⟩ : BufTy).Contents (Elt Ideal)) (x9 : (⟨S1, .f32⟩ : BufTy).Contents (Elt Ideal))
    (h64 : W (Proc.devRef .tc main_v64) = Cert.ReferenceIdeal.Read.val_main_v74 x0 x1 x2 x3 x4 x5 x6 x7 x8 x9) :
    after hostOps5 W (Proc.devRef .tc main_v72) = Cert.ReferenceIdeal.Read.val_main_v82 x0 x1 x2 x3 x4 x5 x6 x7 x8 x9 := by
  after_results_simp
  rw [h64]
  rfl

end Cert.KernelIdeal.Val

end
-- ==== Proof.KCommon.lean ====
/-
  Facts shared by the five regions of the idealized kernel: a block is read from offset zero of its staging buffer,
  and the coordinates of the operand indices of the three matrix products the bodies compute (each contracts the left
  operand's second axis with the right operand's first).
-/
import proofs.«178158_j10213432229995_1_alg».proof.Proof.Gen.KernelIdeal.Frame
import proofs.«178158_j10213432229995_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

theorem hz : (![0, 0] : Fin 2 → Nat) = fun _ => 0 := funext fun a => by fin_cases a <;> rfl

/-- The product `dot_S5000x64_S64x64_S5000x64_1_0_0_1_n_n`: the left operand is read at (row of the output, contraction coordinate), the right operand at
    (contraction coordinate, column of the output). -/
theorem d64_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d64_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem d64_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem d64_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product `dot_S5000x64_S64x256_S5000x256_1_0_0_1_n_n`: the left operand is read at (row of the output, contraction coordinate), the right operand at
    (contraction coordinate, column of the output). -/
theorem d256_l0 (i : S5000x256.Idx) (q : dot_S5000x64_S64x256_S5000x256_1_0_0_1_n_n.contr.Idx) : (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem d256_l1 (i : S5000x256.Idx) (q : dot_S5000x64_S64x256_S5000x256_1_0_0_1_n_n.contr.Idx) : (dot_S5000x64_S64x256_S5000x256_1_0_0_1_n_n.lhsIdx i q 1).val = (q ⟨0, by decide⟩).val :=
  dot_S5000x64_S64x256_S5000x256_1_0_0_1_n_n.lhsIdx_val_of_single rfl i q
theorem d256_r0 (i : S5000x256.Idx) (q : dot_S5000x64_S64x256_S5000x256_1_0_0_1_n_n.contr.Idx) : (dot_S5000x64_S64x256_S5000x256_1_0_0_1_n_n.rhsIdx i q 0).val = (q ⟨0, by decide⟩).val :=
  dot_S5000x64_S64x256_S5000x256_1_0_0_1_n_n.rhsIdx_val_of_single rfl i q
theorem d256_r1 (i : S5000x256.Idx) (q : dot_S5000x64_S64x256_S5000x256_1_0_0_1_n_n.contr.Idx) : (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- The product `dot_S5000x256_S256x1_S5000x1_1_0_0_1_n_n`: the left operand is read at (row of the output, contraction coordinate), the right operand at
    (contraction coordinate, column of the output). -/
theorem d1_l0 (i : S5000x1.Idx) (q : dot_S5000x256_S256x1_S5000x1_1_0_0_1_n_n.contr.Idx) : (dot_S5000x256_S256x1_S5000x1_1_0_0_1_n_n.lhsIdx i q 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem d1_l1 (i : S5000x1.Idx) (q : dot_S5000x256_S256x1_S5000x1_1_0_0_1_n_n.contr.Idx) : (dot_S5000x256_S256x1_S5000x1_1_0_0_1_n_n.lhsIdx i q 1).val = (q ⟨0, by decide⟩).val :=
  dot_S5000x256_S256x1_S5000x1_1_0_0_1_n_n.lhsIdx_val_of_single rfl i q
theorem d1_r0 (i : S5000x1.Idx) (q : dot_S5000x256_S256x1_S5000x1_1_0_0_1_n_n.contr.Idx) : (dot_S5000x256_S256x1_S5000x1_1_0_0_1_n_n.rhsIdx i q 0).val = (q ⟨0, by decide⟩).val :=
  dot_S5000x256_S256x1_S5000x1_1_0_0_1_n_n.rhsIdx_val_of_single rfl i q
theorem d1_r1 (i : S5000x1.Idx) (q : dot_S5000x256_S256x1_S5000x1_1_0_0_1_n_n.contr.Idx) : (dot_S5000x256_S256x1_S5000x1_1_0_0_1_n_n.rhsIdx i q 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

end Cert.KernelIdeal.Val

end
-- ==== Proof.KProduct0.lean ====
/-
  Region 0 of the idealized kernel: the product of an [N, 64] array with a [64, 64] weight, row block by row block.

  The grid has 20 points; point t loads rows 5000 t … 5000 t + 4999 of the left array and the whole weight, multiplies
  them into a zero accumulator, and writes the 5000 x 64 result back as the same rows of the output. A row of a product
  depends on the same row of the left operand only, so block t of the product of the whole arrays is the product of
  block t with the weight, and the 20 blocks tile the output: after the region the output array IS the product of the
  two arrays as the region found them, entry (r, j) the sum over k of left (r, k) * weight (k, j).
-/
import proofs.«178158_j10213432229995_1_alg».proof.Proof.Gen.KernelIdeal.Frame
import proofs.«178158_j10213432229995_1_alg».proof.Proof.LibDense
import proofs.«178158_j10213432229995_1_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's result at an entry: the sum over the contraction (a change of float format is the identity). -/
theorem pay0_apply (x0 : Vec Ideal S5000x64 .f32) (x1 : Vec Ideal S64x64 .f32) (j : S5000x64.Idx) :
    k0_pay1 (F := Ideal) x0 x1 j = Cert.Dense.mm (R := 5000) (K := 64) (C := 64) x0 x1 j := by
  unfold k0_pay1
  exact Cert.Dense.matmul_zero_eq dot_S5000x64_S64x64_S5000x64_1_0_0_1_n_n rfl rfl d64_l0 d64_l1 d64_r0 d64_r1 none _ _ j

/-- Where the windows' blocks sit, decided over the 20 grid points: the left operand's and the output's block t is
    rows 5000 t …, the weight's block is the whole weight. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000 t … of its array. -/
theorem iblk0_0_apply (c : Dev nD) (t : Fin cfg0.N) (y : S5000x64.Idx) (i : S100000x64.Idx)
    (h0 : (i 0).val = 5000 * t.val + (y 0).val) (h1 : (i 1).val = (y 1).val) :
    (iblk0 V c 0 t : Vec Ideal S5000x64 .f32) y = (V c main_arg0 : S100000x64.Idx → EReal) i := by
  obtain ⟨e0, e1, -, -, -, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- The weight's block at every point is the whole weight. -/
theorem iblk0_1_apply (c : Dev nD) (t : Fin cfg0.N) (y i : S64x64.Idx)
    (h0 : (i 0).val = (y 0).val) (h1 : (i 1).val = (y 1).val) :
    (iblk0 V c 1 t : Vec Ideal S64x64 .f32) y = (V c main_arg2 : S64x64.Idx → EReal) i := by
  obtain ⟨-, -, e2, e3, -, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 64 + 1 * (y 0).val = (i 0).val; rw [e2, h0]; omega
  | ⟨1, _⟩ => show win0_1.index t (1 : Fin 2) * 64 + 1 * (y 1).val = (i 1).val; rw [e3, h1]; omega

/-- What the output array holds after the region: the product of the two arrays as the region found them. -/
abbrev G0 (c : Dev nD) : S100000x64.Idx → EReal :=
  Cert.Dense.mm (R := 100000) (K := 64) (C := 64) (V c main_arg0) (V c main_arg2)

/-- What point t writes back is block t of the product. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨-, -, -, -, e4, e5⟩ := idx_facts0 t
  funext j
  rw [View.read_apply]
  refine (pay0_apply (iblk0 V c 0 t) (iblk0 V c 1 t) j).trans ?_
  refine Cert.Dense.mm_congr j _ (fun k => iblk0_0_apply V c t _ _ ?_ ?_) (fun k => iblk0_1_apply V c t _ _ ?_ ?_)
  · show win0_2.index t (0 : Fin 2) * 5000 + 1 * (j 0).val = 5000 * t.val + (j 0).val; rw [e4]; omega
  · rfl
  · rfl
  · show win0_2.index t (1 : Fin 2) * 64 + 1 * (j 1).val = (j 1).val; rw [e5]; omega

/-- An index of the output is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Row r of the output is in the block of point r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e4]; show (i 0).val / 5000 * 5000 ≤ (i 0).val ∧ (i 0).val < (i 0).val / 5000 * 5000 + 5000; omega
  | ⟨1, _⟩ => show win0_2.index t (1 : Fin 2) * 64 ≤ (i 1).val ∧ (i 1).val < win0_2.index t (1 : Fin 2) * 64 + 64; rw [e5]; omega

/-- After the region the output array is the product. -/
theorem final0 (c : Dev nD) : (dat0 V c).arrAt 2 cfg0.N = G0 V c :=
  (dat0 V c).arrAt_eq_of_cover 2 (G0 V c) (fun t _ => flushed0_eq V c t) (cover0)

end Cert.KernelIdeal.Val

end
-- ==== Proof.GcnSpec.lean ====
/-
  The dense stages of the network on the extended reals, entry by entry.

  `biasRelu A B`: entry (r, j) of A plus entry j of the bias row B, clamped below at zero. `head H W1 B1 W2 B2`: the
  two-layer head, (biasRelu (H · W1) B1) · W2 plus the bias B2, a column. Each depends on one row of its first operand
  only, which is what lets a kernel compute it row block by row block.
-/
import proofs.«178158_j10213432229995_1_alg».proof.Proof.LibDense
import Idealize.ShloMosaic.Lib.ValueIdx
import Idealize.ShloMosaic.PureOps.Ideal.Laws

noncomputable section

namespace Cert.Gcn

open Idealize.ShloMosaic Idealize.ShloMosaic.ValueIdx

/-- Zero, as the float word both programs spell. -/
abbrev zero : EReal := Ideal.ofBits .f32 0x00000000#32

/-- Entry (r, j) of A plus the bias row's entry j, clamped below at zero. -/
def biasRelu {R C : Nat} (A : (⟨2, ![R, C]⟩ : Shape).Idx → EReal) (B : (⟨2, ![1, C]⟩ : Shape).Idx → EReal) :
    (⟨2, ![R, C]⟩ : Shape).Idx → EReal :=
  fun i => max (A i + B (ix2 (0 : Fin 1) (i 1))) zero

/-- Two such entries agree when the columns and the entries of A do. -/
theorem biasRelu_congr {R R' C : Nat} {A : (⟨2, ![R, C]⟩ : Shape).Idx → EReal} {A' : (⟨2, ![R', C]⟩ : Shape).Idx → EReal}
    {B : (⟨2, ![1, C]⟩ : Shape).Idx → EReal} (i : (⟨2, ![R, C]⟩ : Shape).Idx) (i' : (⟨2, ![R', C]⟩ : Shape).Idx)
    (h1 : i 1 = i' 1) (hA : A i = A' i') : biasRelu A B i = biasRelu A' B i' := by
  unfold biasRelu
  rw [hA, h1]

/-- The two-layer head: row r of H through the first layer with bias and clamp, then the second layer and its bias. -/
def head {R : Nat} (H : (⟨2, ![R, 64]⟩ : Shape).Idx → EReal) (W1 : (⟨2, ![64, 256]⟩ : Shape).Idx → EReal)
    (B1 : (⟨2, ![1, 256]⟩ : Shape).Idx → EReal) (W2 : (⟨2, ![256, 1]⟩ : Shape).Idx → EReal)
    (B2 : (⟨2, ![1, 1]⟩ : Shape).Idx → EReal) : (⟨2, ![R, 1]⟩ : Shape).Idx → EReal :=
  fun i => Cert.Dense.mm (biasRelu (Cert.Dense.mm H W1) B1) W2 i + B2 (ix2 (0 : Fin 1) (i 1))

/-- Two head entries agree when H agrees along the two rows. -/
theorem head_congr {R R' : Nat} {H : (⟨2, ![R, 64]⟩ : Shape).Idx → EReal} {H' : (⟨2, ![R', 64]⟩ : Shape).Idx → EReal}
    {W1 : (⟨2, ![64, 256]⟩ : Shape).Idx → EReal} {B1 : (⟨2, ![1, 256]⟩ : Shape).Idx → EReal}
    {W2 : (⟨2, ![256, 1]⟩ : Shape).Idx → EReal} {B2 : (⟨2, ![1, 1]⟩ : Shape).Idx → EReal}
    (i : (⟨2, ![R, 1]⟩ : Shape).Idx) (i' : (⟨2, ![R', 1]⟩ : Shape).Idx) (h1 : i 1 = i' 1)
    (hH : ∀ k : Fin 64, H (ix2 (i 0) k) = H' (ix2 (i' 0) k)) :
    head H W1 B1 W2 B2 i = head H' W1 B1 W2 B2 i' := by
  unfold head
  rw [h1]
  refine congrArg (· + B2 (ix2 (0 : Fin 1) (i' 1))) ?_
  refine Cert.Dense.mm_congr i i' (fun k => ?_) (fun k => by rw [h1])
  refine biasRelu_congr _ _ rfl ?_
  exact Cert.Dense.mm_congr _ _ (fun k' => hH k') (fun k' => rfl)

end Cert.Gcn

end
-- ==== Proof.KBiasRelu1.lean ====
/-
  Region 1 of the idealized kernel: bias and clamp, row block by row block.

  The grid has 20 points; point t loads rows 5000 t … 5000 t + 4999 of the aggregated features and the whole [1, 64]
  bias row, adds the bias to every row, clamps below at zero, and writes the block back as the same rows of the output.
  The operation is entrywise in the features, so the 20 blocks tile one whole-array function: after the region the
  output array holds, at (r, j), max (features (r, j) + bias (0, j)) 0 of the arrays as the region found them.
-/
import proofs.«178158_j10213432229995_1_alg».proof.Proof.Gen.KernelIdeal.Frame
import proofs.«178158_j10213432229995_1_alg».proof.Proof.LibDense
import proofs.«178158_j10213432229995_1_alg».proof.Proof.KCommon
import proofs.«178158_j10213432229995_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's result at an entry (a cast to the same shape is the identity; the bias row is repeated along the rows). -/
theorem pay1_apply (x0 : Vec Ideal S5000x64 .f32) (x1 : Vec Ideal S1x64 .f32) (j : S5000x64.Idx) :
    k1_pay1 (F := Ideal) x0 x1 j = Cert.Gcn.biasRelu (R := 5000) (C := 64) x0 x1 j := by
  unfold k1_pay1 Cert.Gcn.biasRelu
  rw [shapeCast_self, shapeCast_self]
  obtain ⟨r, q, rfl⟩ : ∃ (r : Fin 5000) (q : Fin 64), j = ix2 r q := ⟨j 0, j 1, eq_ix2 j⟩
  rw [maximumf_apply, addf_apply, broadcastTo_1b_ab_apply]
  rfl

/-- Where the windows' blocks sit, decided over the 20 grid points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The features' block at point t is rows 5000 t … of their array. -/
theorem iblk1_0_apply (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v43 : S100000x64.Idx → EReal) i := by
  obtain ⟨e0, e1, -, -, -, -⟩ := idx_facts1 t
  unfold iblk1
  rw [View.read_apply]
  show V c main_v43 _ = V c main_v43 _
  refine congrArg (V c main_v43) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The bias row's block at every point is the whole row. -/
theorem iblk1_1_apply (c : Dev nD) (t : Fin cfg1.N) (y i : S1x64.Idx)
    (h0 : (i 0).val = (y 0).val) (h1 : (i 1).val = (y 1).val) :
    (iblk1 V c 1 t : Vec Ideal S1x64 .f32) y = (V c main_v44 : S1x64.Idx → EReal) i := by
  obtain ⟨-, -, e2, e3, -, -⟩ := idx_facts1 t
  unfold iblk1
  rw [View.read_apply]
  show V c main_v44 _ = V c main_v44 _
  refine congrArg (V c main_v44) (funext fun a => Fin.ext ?_)
  match a with
  | ⟨0, _⟩ => show win1_1.index t (0 : Fin 2) * 1 + 1 * (y 0).val = (i 0).val; rw [e2, h0]; omega
  | ⟨1, _⟩ => show win1_1.index t (1 : Fin 2) * 64 + 1 * (y 1).val = (i 1).val; rw [e3, h1]; omega

/-- What the output array holds after the region. -/
abbrev G1 (c : Dev nD) : S100000x64.Idx → EReal :=
  Cert.Gcn.biasRelu (R := 100000) (C := 64) (V c main_v43) (V c main_v44)

/-- What point t writes back is block t of that array. -/
theorem flushed1_eq (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨-, -, -, -, e4, e5⟩ := idx_facts1 t
  funext j
  rw [View.read_apply]
  refine (pay1_apply (iblk1 V c 0 t) (iblk1 V c 1 t) j).trans ?_
  unfold Cert.Gcn.biasRelu
  refine congrArg₂ (fun a b => max (a + b) Cert.Gcn.zero) (iblk1_0_apply V c t _ _ ?_ ?_) (iblk1_1_apply V c t _ _ rfl ?_)
  · show win1_2.index t (0 : Fin 2) * 5000 + 1 * (j 0).val = 5000 * t.val + (j 0).val; rw [e4]; omega
  · show win1_2.index t (1 : Fin 2) * 64 + 1 * (j 1).val = (j 1).val; rw [e5]; omega
  · show win1_2.index t (1 : Fin 2) * 64 + 1 * (j 1).val = (j 1).val; rw [e5]; omega

/-- An index of the output is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v45).slice (win1_2.rect t)).set ↔ _
  rw [View.set_slice_whole, Rect.mem_set_unit]
  exact Iff.rfl

/-- Row r of the output is in the block of point r / 5000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4]; show (i 0).val / 5000 * 5000 ≤ (i 0).val ∧ (i 0).val < (i 0).val / 5000 * 5000 + 5000; omega
  | ⟨1, _⟩ => show win1_2.index t (1 : Fin 2) * 64 ≤ (i 1).val ∧ (i 1).val < win1_2.index t (1 : Fin 2) * 64 + 64; rw [e5]; omega

/-- After the region the output array is that function of the arrays the region found. -/
theorem final1 (c : Dev nD) : (dat1 V c).arrAt 2 cfg1.N = G1 V c :=
  (dat1 V c).arrAt_eq_of_cover 2 (G1 V c) (fun t _ => flushed1_eq V c t) (cover1)

end Cert.KernelIdeal.Val

end
-- ==== Proof.KProduct2.lean ====
/-
  Region 2 of the idealized kernel: the product of an [N, 64] array with a [64, 64] weight, row block by row block.

  The grid has 20 points; point t loads rows 5000 t … 5000 t + 4999 of the left array and the whole weight, multiplies
  them into a zero accumulator, and writes the 5000 x 64 result back as the same rows of the output. A row of a product
  depends on the same row of the left operand only, so block t of the product of the whole arrays is the product of
  block t with the weight, and the 20 blocks tile the output: after the region the output array IS the product of the
  two arrays as the region found them, entry (r, j) the sum over k of left (r, k) * weight (k, j).
-/
import proofs.«178158_j10213432229995_1_alg».proof.Proof.Gen.KernelIdeal.Frame
import proofs.«178158_j10213432229995_1_alg».proof.Proof.LibDense
import proofs.«178158_j10213432229995_1_alg».proof.Proof.KCommon
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's result at an entry: the sum over the contraction (a change of float format is the identity, and so is a cast to the same shape). -/
theorem pay2_apply (x0 : Vec Ideal S5000x64 .f32) (x1 : Vec Ideal S64x64 .f32) (j : S5000x64.Idx) :
    k2_pay1 (F := Ideal) x0 x1 j = Cert.Dense.mm (R := 5000) (K := 64) (C := 64) x0 x1 j := by
  unfold k2_pay1
  rw [shapeCast_self]
  exact Cert.Dense.matmul_zero_eq dot_S5000x64_S64x64_S5000x64_1_0_0_1_n_n rfl rfl d64_l0 d64_l1 d64_r0 d64_r1 none _ _ j

/-- Where the windows' blocks sit, decided over the 20 grid points: the left operand's and the output's block t is
    rows 5000 t …, the weight's block is the whole weight. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 5000 t … of its array. -/
theorem iblk2_0_apply (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v45 : S100000x64.Idx → EReal) i := by
  obtain ⟨e0, e1, -, -, -, -⟩ := idx_facts2 t
  unfold iblk2
  rw [View.read_apply]
  show V c main_v45 _ = V c main_v45 _
  refine congrArg (V c main_v45) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- The weight's block at every point is the whole weight. -/
theorem iblk2_1_apply (c : Dev nD) (t : Fin cfg2.N) (y i : S64x64.Idx)
    (h0 : (i 0).val = (y 0).val) (h1 : (i 1).val = (y 1).val) :
    (iblk2 V c 1 t : Vec Ideal S64x64 .f32) y = (V c main_arg4 : S64x64.Idx → EReal) i := by
  obtain ⟨-, -, e2, e3, -, -⟩ := idx_facts2 t
  unfold iblk2
  rw [View.read_apply]
  show V c main_arg4 _ = V c main_arg4 _
  refine congrArg (V c main_arg4) (funext fun a => Fin.ext ?_)
  match a with
  | ⟨0, _⟩ => show win2_1.index t (0 : Fin 2) * 64 + 1 * (y 0).val = (i 0).val; rw [e2, h0]; omega
  | ⟨1, _⟩ => show win2_1.index t (1 : Fin 2) * 64 + 1 * (y 1).val = (i 1).val; rw [e3, h1]; omega

/-- What the output array holds after the region: the product of the two arrays as the region found them. -/
abbrev G2 (c : Dev nD) : S100000x64.Idx → EReal :=
  Cert.Dense.mm (R := 100000) (K := 64) (C := 64) (V c main_v45) (V c main_arg4)

/-- What point t writes back is block t of the product. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨-, -, -, -, e4, e5⟩ := idx_facts2 t
  funext j
  rw [View.read_apply]
  refine (pay2_apply (iblk2 V c 0 t) (iblk2 V c 1 t) j).trans ?_
  refine Cert.Dense.mm_congr j _ (fun k => iblk2_0_apply V c t _ _ ?_ ?_) (fun k => iblk2_1_apply V c t _ _ ?_ ?_)
  · show win2_2.index t (0 : Fin 2) * 5000 + 1 * (j 0).val = 5000 * t.val + (j 0).val; rw [e4]; omega
  · rfl
  · rfl
  · show win2_2.index t (1 : Fin 2) * 64 + 1 * (j 1).val = (j 1).val; rw [e5]; omega

/-- An index of the output is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row r of the output is in the block of point r / 5000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4]; show (i 0).val / 5000 * 5000 ≤ (i 0).val ∧ (i 0).val < (i 0).val / 5000 * 5000 + 5000; omega
  | ⟨1, _⟩ => show win2_2.index t (1 : Fin 2) * 64 ≤ (i 1).val ∧ (i 1).val < win2_2.index t (1 : Fin 2) * 64 + 64; rw [e5]; omega

/-- After the region the output array is the product. -/
theorem final2 (c : Dev nD) : (dat2 V c).arrAt 2 cfg2.N = G2 V c :=
  (dat2 V c).arrAt_eq_of_cover 2 (G2 V c) (fun t _ => flushed2_eq V c t) (cover2)

end Cert.KernelIdeal.Val

end
-- ==== Proof.KBiasRelu3.lean ====
/-
  Region 3 of the idealized kernel: bias and clamp, row block by row block.

  The grid has 20 points; point t loads rows 5000 t … 5000 t + 4999 of the aggregated features and the whole [1, 64]
  bias row, adds the bias to every row, clamps below at zero, and writes the block back as the same rows of the output.
  The operation is entrywise in the features, so the 20 blocks tile one whole-array function: after the region the
  output array holds, at (r, j), max (features (r, j) + bias (0, j)) 0 of the arrays as the region found them.
-/
import proofs.«178158_j10213432229995_1_alg».proof.Proof.Gen.KernelIdeal.Frame
import proofs.«178158_j10213432229995_1_alg».proof.Proof.LibDense
import proofs.«178158_j10213432229995_1_alg».proof.Proof.KCommon
import proofs.«178158_j10213432229995_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's result at an entry (a cast to the same shape is the identity; the bias row is repeated along the rows). -/
theorem pay3_apply (x0 : Vec Ideal S5000x64 .f32) (x1 : Vec Ideal S1x64 .f32) (j : S5000x64.Idx) :
    k3_pay1 (F := Ideal) x0 x1 j = Cert.Gcn.biasRelu (R := 5000) (C := 64) x0 x1 j := by
  unfold k3_pay1 Cert.Gcn.biasRelu
  rw [shapeCast_self, shapeCast_self]
  obtain ⟨r, q, rfl⟩ : ∃ (r : Fin 5000) (q : Fin 64), j = ix2 r q := ⟨j 0, j 1, eq_ix2 j⟩
  rw [maximumf_apply, addf_apply, broadcastTo_1b_ab_apply]
  rfl

/-- Where the windows' blocks sit, decided over the 20 grid points. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point t is rows 5000 t … of their array. -/
theorem iblk3_0_apply (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v59 : S100000x64.Idx → EReal) i := by
  obtain ⟨e0, e1, -, -, -, -⟩ := idx_facts3 t
  unfold iblk3
  rw [View.read_apply]
  show V c main_v59 _ = V c main_v59 _
  refine congrArg (V c main_v59) (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The bias row's block at every point is the whole row. -/
theorem iblk3_1_apply (c : Dev nD) (t : Fin cfg3.N) (y i : S1x64.Idx)
    (h0 : (i 0).val = (y 0).val) (h1 : (i 1).val = (y 1).val) :
    (iblk3 V c 1 t : Vec Ideal S1x64 .f32) y = (V c main_v60 : S1x64.Idx → EReal) i := by
  obtain ⟨-, -, e2, e3, -, -⟩ := idx_facts3 t
  unfold iblk3
  rw [View.read_apply]
  show V c main_v60 _ = V c main_v60 _
  refine congrArg (V c main_v60) (funext fun a => Fin.ext ?_)
  match a with
  | ⟨0, _⟩ => show win3_1.index t (0 : Fin 2) * 1 + 1 * (y 0).val = (i 0).val; rw [e2, h0]; omega
  | ⟨1, _⟩ => show win3_1.index t (1 : Fin 2) * 64 + 1 * (y 1).val = (i 1).val; rw [e3, h1]; omega

/-- What the output array holds after the region. -/
abbrev G3 (c : Dev nD) : S100000x64.Idx → EReal :=
  Cert.Gcn.biasRelu (R := 100000) (C := 64) (V c main_v59) (V c main_v60)

/-- What point t writes back is block t of that array. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨-, -, -, -, e4, e5⟩ := idx_facts3 t
  funext j
  rw [View.read_apply]
  refine (pay3_apply (iblk3 V c 0 t) (iblk3 V c 1 t) j).trans ?_
  unfold Cert.Gcn.biasRelu
  refine congrArg₂ (fun a b => max (a + b) Cert.Gcn.zero) (iblk3_0_apply V c t _ _ ?_ ?_) (iblk3_1_apply V c t _ _ rfl ?_)
  · show win3_2.index t (0 : Fin 2) * 5000 + 1 * (j 0).val = 5000 * t.val + (j 0).val; rw [e4]; omega
  · show win3_2.index t (1 : Fin 2) * 64 + 1 * (j 1).val = (j 1).val; rw [e5]; omega
  · show win3_2.index t (1 : Fin 2) * 64 + 1 * (j 1).val = (j 1).val; rw [e5]; omega

/-- An index of the output is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- Row r of the output is in the block of point r / 5000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by rw [hN]; omega⟩
  obtain ⟨-, -, -, -, e4, e5⟩ := idx_facts3 t
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; rw [e4]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; rw [e5]; omega

/-- After the region the output array is that function of the arrays the region found. -/
theorem final3 (c : Dev nD) : (dat3 V c).arrAt 2 cfg3.N = G3 V c :=
  (dat3 V c).arrAt_eq_of_cover 2 (G3 V c) (fun t _ => flushed3_eq V c t) (cover3)

end Cert.KernelIdeal.Val

end
-- ==== Proof.KHead4.lean ====
/-
  Region 4 of the idealized kernel: the two-layer head, row block by row block.

  The grid has 20 points; point t loads rows 5000 t … 5000 t + 4999 of the features and the whole of the two weights
  and the two bias rows, computes (max (rows · W1 + b1) 0) · W2 + b2 for its rows, and writes the 5000 x 1 result back
  as the same rows of the output column. Row r of the result depends on row r of the features only, so the 20 blocks
  tile the head of the whole arrays: after the region the output column is `Gcn.head` of the arrays as the region found
  them.
-/
import proofs.«178158_j10213432229995_1_alg».proof.Proof.Gen.KernelIdeal.Frame
import proofs.«178158_j10213432229995_1_alg».proof.Proof.LibDense
import proofs.«178158_j10213432229995_1_alg».proof.Proof.KCommon
import proofs.«178158_j10213432229995_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

/-- The body's result at an entry: both products are sums over their contraction (a change of float format and a cast
    to the same shape are the identity; a bias row is repeated along the rows). -/
theorem pay4_apply (x0 : Vec Ideal S5000x64 .f32) (x1 : Vec Ideal S64x256 .f32) (x2 : Vec Ideal S1x256 .f32)
    (x3 : Vec Ideal S256x1 .f32) (x4 : Vec Ideal S1x1 .f32) (j : S5000x1.Idx) :
    k4_pay1 (F := Ideal) x0 x1 x2 x3 x4 j = Cert.Gcn.head (R := 5000) x0 x1 x2 x3 x4 j := by
  unfold k4_pay1 Cert.Gcn.head
  rw [shapeCast_self, shapeCast_self, shapeCast_self]
  obtain ⟨r, q, rfl⟩ : ∃ (r : Fin 5000) (q : Fin 1), j = ix2 r q := ⟨j 0, j 1, eq_ix2 j⟩
  rw [addf_apply, broadcastTo_1b_ab_apply]
  refine congrArg (· + x4 (ix2 (0 : Fin 1) q)) ?_
  refine (Cert.Dense.matmul_zero_eq dot_S5000x256_S256x1_S5000x1_1_0_0_1_n_n rfl rfl d1_l0 d1_l1 d1_r0 d1_r1 none _ _ (ix2 r q)).trans ?_
  refine Cert.Dense.mm_congr _ _ (fun k => ?_) (fun k => rfl)
  unfold Cert.Gcn.biasRelu
  rw [truncf_apply, maximumf_apply, addf_apply, broadcastTo_1b_ab_apply]
  refine congrArg₂ max (congrArg (· + x2 (ix2 (0 : Fin 1) k)) ?_) rfl
  exact Cert.Dense.matmul_zero_eq dot_S5000x64_S64x256_S5000x256_1_0_0_1_n_n rfl rfl d256_l0 d256_l1 d256_r0 d256_r1 none _ _ _

/-- Where the windows' blocks sit, decided over the 20 grid points: the features' and the output's block t is rows
    5000 t …; every other window's block is its whole array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The features' block at point t is rows 5000 t … of their array. -/
theorem iblk4_0_apply (c : Dev nD) (t : Fin cfg4.N) (y : S5000x64.Idx) (i : S100000x64.Idx)
    (h0 : (i 0).val = 5000 * t.val + (y 0).val) (h1 : (i 1).val = (y 1).val) :
    (iblk4 V c 0 t : Vec Ideal S5000x64 .f32) y = (V c main_v61 : S100000x64.Idx → EReal) i := by
  obtain ⟨e0, e1, -, -, -, -, -, -, -, -, -, -⟩ := idx_facts4 t
  unfold iblk4
  rw [View.read_apply]
  show V c main_v61 _ = V c main_v61 _
  refine congrArg (V c main_v61) (funext fun a => Fin.ext ?_)
  match a with
  | ⟨0, _⟩ => show win4_0.index t (0 : Fin 2) * 5000 + 1 * (y 0).val = (i 0).val; rw [e0, h0]; omega
  | ⟨1, _⟩ => show win4_0.index t (1 : Fin 2) * 64 + 1 * (y 1).val = (i 1).val; rw [e1, h1]; omega

/-- The first weight's block at every point is the whole weight. -/
theorem iblk4_1_eq (c : Dev nD) (t : Fin cfg4.N) :
    (iblk4 V c 1 t : Vec Ideal S64x256 .f32) = (V c main_arg6 : S64x256.Idx → EReal) := by
  obtain ⟨-, -, e2, e3, e4, e5, e6, e7, e8, e9, -, -⟩ := idx_facts4 t
  funext y
  unfold iblk4
  rw [View.read_apply]
  show V c main_arg6 _ = V c main_arg6 _
  refine congrArg (V c main_arg6) (funext fun a => Fin.ext ?_)
  match a with
  | ⟨0, _⟩ => show win4_1.index t (0 : Fin 2) * 64 + 1 * (y 0).val = (y 0).val; rw [e2]; omega
  | ⟨1, _⟩ => show win4_1.index t (1 : Fin 2) * 256 + 1 * (y 1).val = (y 1).val; rw [e3]; omega

/-- The first bias row's block at every point is the whole row. -/
theorem iblk4_2_eq (c : Dev nD) (t : Fin cfg4.N) :
    (iblk4 V c 2 t : Vec Ideal S1x256 .f32) = (V c main_v62 : S1x256.Idx → EReal) := by
  obtain ⟨-, -, e2, e3, e4, e5, e6, e7, e8, e9, -, -⟩ := idx_facts4 t
  funext y
  unfold iblk4
  rw [View.read_apply]
  show V c main_v62 _ = V c main_v62 _
  refine congrArg (V c main_v62) (funext fun a => Fin.ext ?_)
  match a with
  | ⟨0, _⟩ => show win4_2.index t (0 : Fin 2) * 1 + 1 * (y 0).val = (y 0).val; rw [e4]; omega
  | ⟨1, _⟩ => show win4_2.index t (1 : Fin 2) * 256 + 1 * (y 1).val = (y 1).val; rw [e5]; omega

/-- The second weight's block at every point is the whole weight. -/
theorem iblk4_3_eq (c : Dev nD) (t : Fin cfg4.N) :
    (iblk4 V c 3 t : Vec Ideal S256x1 .f32) = (V c main_arg8 : S256x1.Idx → EReal) := by
  obtain ⟨-, -, e2, e3, e4, e5, e6, e7, e8, e9, -, -⟩ := idx_facts4 t
  funext y
  unfold iblk4
  rw [View.read_apply]
  show V c main_arg8 _ = V c main_arg8 _
  refine congrArg (V c main_arg8) (funext fun a => Fin.ext ?_)
  match a with
  | ⟨0, _⟩ => show win4_3.index t (0 : Fin 2) * 256 + 1 * (y 0).val = (y 0).val; rw [e6]; omega
  | ⟨1, _⟩ => show win4_3.index t (1 : Fin 2) * 1 + 1 * (y 1).val = (y 1).val; rw [e7]; omega

/-- The second bias's block at every point is the whole [1, 1] array. -/
theorem iblk4_4_eq (c : Dev nD) (t : Fin cfg4.N) :
    (iblk4 V c 4 t : Vec Ideal S1x1 .f32) = (V c main_v63 : S1x1.Idx → EReal) := by
  obtain ⟨-, -, e2, e3, e4, e5, e6, e7, e8, e9, -, -⟩ := idx_facts4 t
  funext y
  unfold iblk4
  rw [View.read_apply]
  show V c main_v63 _ = V c main_v63 _
  refine congrArg (V c main_v63) (funext fun a => Fin.ext ?_)
  match a with
  | ⟨0, _⟩ => show win4_4.index t (0 : Fin 2) * 1 + 1 * (y 0).val = (y 0).val; rw [e8]; omega
  | ⟨1, _⟩ => show win4_4.index t (1 : Fin 2) * 1 + 1 * (y 1).val = (y 1).val; rw [e9]; omega

/-- What the output column holds after the region. -/
abbrev G4 (c : Dev nD) : S100000x1.Idx → EReal :=
  Cert.Gcn.head (R := 100000) (V c main_v61) (V c main_arg6) (V c main_v62) (V c main_arg8) (V c main_v63)

/-- What point t writes back is block t of that column. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x256) hz, View.ld_unit_zero (S := S1x256) hz,
    View.ld_unit_zero (S := S256x1) hz, View.ld_unit_zero (S := S1x1) hz]
  obtain ⟨-, -, -, -, -, -, -, -, -, -, e10, e11⟩ := idx_facts4 t
  funext j
  rw [View.read_apply]
  refine (pay4_apply (iblk4 V c 0 t) (iblk4 V c 1 t) (iblk4 V c 2 t) (iblk4 V c 3 t) (iblk4 V c 4 t) j).trans ?_
  rw [iblk4_1_eq V c t, iblk4_2_eq V c t, iblk4_3_eq V c t, iblk4_4_eq V c t]
  refine Cert.Gcn.head_congr j _ (Fin.ext ?_) (fun k => iblk4_0_apply V c t _ _ ?_ rfl)
  · show (j 1).val = win4_5.index t (1 : Fin 2) * 1 + 1 * (j 1).val; rw [e11]; omega
  · show win4_5.index t (0 : Fin 2) * 5000 + 1 * (j 0).val = 5000 * t.val + (j 0).val; rw [e10]; omega

/-- An index of the output is in point t's block iff each coordinate is in the block's range on its axis. -/
theorem mem_blk4 (t : Fin cfg4.N) (i : S100000x1.Idx) :
    i ∈ ((cfg4.win 5).blk t).view.set ↔ ∀ a : Fin 2, win4_5.index t a * S5000x1.size a ≤ (i a).val ∧ (i a).val < win4_5.index t a * S5000x1.size a + S5000x1.size a := by
  show i ∈ ((View.whole main_v64).slice (win4_5.rect t)).set ↔ _
  rw [View.set_slice_whole, Rect.mem_set_unit]
  exact Iff.rfl

/-- Row r of the output is in the block of point r / 5000. -/
theorem cover4 (i : S100000x1.Idx) : ∃ t : Fin cfg4.N, (cfg4.win 5).flush t = true ∧ i ∈ ((cfg4.win 5).blk t).view.set := by
  have hi0 : (i 0).val < 100000 := (i 0).isLt
  have hi1 : (i 1).val < 1 := (i 1).isLt
  have hN : cfg4.N = 20 := N_4
  let t : Fin cfg4.N := ⟨(i 0).val / 5000, by rw [hN]; omega⟩
  obtain ⟨-, -, -, -, -, -, -, -, -, -, e10, e11⟩ := idx_facts4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; rw [e10]; show (i 0).val / 5000 * 5000 ≤ (i 0).val ∧ (i 0).val < (i 0).val / 5000 * 5000 + 5000; omega
  | ⟨1, _⟩ => show win4_5.index t (1 : Fin 2) * 1 ≤ (i 1).val ∧ (i 1).val < win4_5.index t (1 : Fin 2) * 1 + 1; rw [e11]; omega

/-- After the region the output column is the head of the arrays the region found. -/
theorem final4 (c : Dev nD) : (dat4 V c).arrAt 5 cfg4.N = G4 V c :=
  (dat4 V c).arrAt_eq_of_cover 5 (G4 V c) (fun t _ => flushed4_eq V c t) (cover4)

end Cert.KernelIdeal.Val

end
-- ==== Proof.Bridge.lean ====
/-
  The dense stages as the reference spells them.

  The reference computes each dense stage with host operations on whole arrays: a dot_general, a bias broadcast along
  the rows and added, a maximum with a broadcast zero. Entry by entry these are the product sum, the bias row's entry
  added, the clamp at zero: `Dense.mm`, `Gcn.biasRelu`, `Gcn.head` of the same operands. Nothing here needs the
  operands to be finite: the two sides are the same sums and maxima of the same extended reals.
-/
import proofs.«178158_j10213432229995_1_alg».proof.Proof.RefRead
import proofs.«178158_j10213432229995_1_alg».proof.Proof.GcnSpec
import proofs.«178158_j10213432229995_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx

namespace Cert.Gcn.Bridge

open Cert.ReferenceIdeal Cert.ReferenceIdeal.Read

variable (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x256, .f32⟩ : BufTy).Contents (Elt Ideal)) (x7 : (⟨S256, .f32⟩ : BufTy).Contents (Elt Ideal)) (x8 : (⟨S256x1, .f32⟩ : BufTy).Contents (Elt Ideal)) (x9 : (⟨S1, .f32⟩ : BufTy).Contents (Elt Ideal))

/-- The host's product of two arrays is the product sum, entry by entry. -/
theorem dot64 (X : S100000x64.Idx → EReal) (Wt : S64x64.Idx → EReal) :
    Cert.Dense.mm (R := 100000) (K := 64) (C := 64) X Wt
      = Host.dotGeneral (F := Ideal) (φ₁ := .f32) (φ₂ := .f32) dot_S100000x64_S64x64_S100000x64_1_0_0_1_n_n none X Wt :=
  funext fun i => (Cert.Dense.dotGeneral_eq (φ₁ := .f32) (φ₂ := .f32) dot_S100000x64_S64x64_S100000x64_1_0_0_1_n_n rfl rfl
    lhs_main_v30_0 lhs_main_v30_1 rhs_main_v30_0 rhs_main_v30_1 none .single X Wt i).symm

/-- The first layer's transform. -/
theorem stage_v30 : Cert.Dense.mm (R := 100000) (K := 64) (C := 64) x0 x2 = val_main_v30 (F := Ideal) x0 x2 := by
  unfold val_main_v30
  exact dot64 x0 x2

/-- A bias of length C viewed as a [1, C] row, added along the rows of A, clamped at zero, at the entry (r, q). -/
theorem biasRelu_row {C : Nat} (A : (⟨2, ![100000, C]⟩ : Shape).Idx → EReal) (b : (⟨1, ![C]⟩ : Shape).Idx → EReal)
    (h : (⟨1, ![C]⟩ : Shape).ShapeCasts ⟨2, ![1, C]⟩) (r : Fin 100000) (q : Fin C) :
    Cert.Gcn.biasRelu (R := 100000) (C := C) A (shapeCast ⟨2, ![1, C]⟩ b h) (ix2 r q) = max (A (ix2 r q) + b (ix1 q)) Cert.Gcn.zero := by
  unfold Cert.Gcn.biasRelu
  show max (A (ix2 r q) + shapeCast ⟨2, ![1, C]⟩ b h (ix2 (0 : Fin 1) q)) Cert.Gcn.zero = _
  rw [shapeCast_a_1a_apply]

/-- The first layer's output: the reference's broadcasts of the bias, its add and its maximum with a broadcast zero. -/
theorem stage_v47 (h : S64.ShapeCasts S1x64) :
    Cert.Gcn.biasRelu (R := 100000) (C := 64) (val_main_v43 (F := Ideal) x0 x1 x2) (shapeCast S1x64 x3 h)
      = val_main_v47 (F := Ideal) x0 x1 x2 x3 := by
  funext i
  obtain ⟨r, q, rfl⟩ : ∃ (r : Fin 100000) (q : Fin 64), i = ix2 r q := ⟨i 0, i 1, eq_ix2 i⟩
  rw [biasRelu_row, val_main_v47_apply, val_main_v46_apply, val_main_v45_apply, val_main_v44_apply, val_main_call1_v0_apply, val_main_call1_cst_apply]
  exact congrArg₂ max (congrArg₂ (· + ·) rfl (congrArg x3 (funext fun a => by match a with | ⟨0, _⟩ => rfl))) rfl

/-- The second layer's transform. -/
theorem stage_v48 : Cert.Dense.mm (R := 100000) (K := 64) (C := 64) (val_main_v47 (F := Ideal) x0 x1 x2 x3) x4
    = val_main_v48 (F := Ideal) x0 x1 x2 x3 x4 := by
  unfold val_main_v48
  exact dot64 _ x4

/-- The second layer's output. -/
theorem stage_v65 (h : S64.ShapeCasts S1x64) :
    Cert.Gcn.biasRelu (R := 100000) (C := 64) (val_main_v61 (F := Ideal) x0 x1 x2 x3 x4) (shapeCast S1x64 x5 h)
      = val_main_v65 (F := Ideal) x0 x1 x2 x3 x4 x5 := by
  funext i
  obtain ⟨r, q, rfl⟩ : ∃ (r : Fin 100000) (q : Fin 64), i = ix2 r q := ⟨i 0, i 1, eq_ix2 i⟩
  rw [biasRelu_row, val_main_v65_apply, val_main_v64_apply, val_main_v63_apply, val_main_v62_apply, val_main_call2_v0_apply, val_main_call2_cst_apply]
  exact congrArg₂ max (congrArg₂ (· + ·) rfl (congrArg x5 (funext fun a => by match a with | ⟨0, _⟩ => rfl))) rfl

/-- The head: the reference's two dot_generals with their biases and the clamp between them. -/
theorem stage_v74 (h7 : S256.ShapeCasts S1x256) (h9 : S1.ShapeCasts S1x1) :
    Cert.Gcn.head (R := 100000) (val_main_v65 (F := Ideal) x0 x1 x2 x3 x4 x5) x6 (shapeCast S1x256 x7 h7) x8 (shapeCast S1x1 x9 h9)
      = val_main_v74 (F := Ideal) x0 x1 x2 x3 x4 x5 x6 x7 x8 x9 := by
  funext i
  obtain ⟨r, q, rfl⟩ : ∃ (r : Fin 100000) (q : Fin 1), i = ix2 r q := ⟨i 0, i 1, eq_ix2 i⟩
  unfold Cert.Gcn.head
  show Cert.Dense.mm _ x8 (ix2 r q) + shapeCast S1x1 x9 h9 (ix2 (0 : Fin 1) q) = _
  rw [val_main_v74_apply, val_main_v73_apply, val_main_v72_apply, shapeCast_a_1a_apply]
  refine congrArg₂ (· + ·) ?_ (congrArg x9 (funext fun a => by
    match a with
    | ⟨0, _⟩ => exact Fin.ext (by have := q.isLt; show q.val = 0; omega)))
  unfold val_main_v71
  refine Eq.trans ?_ (Cert.Dense.dotGeneral_eq (φ₁ := .f32) (φ₂ := .f32) dot_S100000x256_S256x1_S100000x1_1_0_0_1_n_n rfl rfl
    lhs_main_v71_0 lhs_main_v71_1 rhs_main_v71_0 rhs_main_v71_1 none .single _ _ (ix2 r q)).symm
  refine Cert.Dense.mm_congr _ _ (fun k => ?_) (fun k => rfl)
  show Cert.Gcn.biasRelu (R := 100000) (C := 256) _ (shapeCast S1x256 x7 h7) (ix2 r k) = val_main_v70 (F := Ideal) x0 x1 x2 x3 x4 x5 x6 x7 (ix2 r k)
  rw [biasRelu_row, val_main_v70_apply, val_main_v69_apply, val_main_v68_apply, val_main_v67_apply, val_main_call3_v0_apply, val_main_call3_cst_apply]
  refine congrArg₂ max (congrArg₂ (· + ·) ?_ (congrArg x7 (funext fun a => by match a with | ⟨0, _⟩ => rfl))) rfl
  unfold val_main_v66
  exact (Cert.Dense.dotGeneral_eq (φ₁ := .f32) (φ₂ := .f32) dot_S100000x64_S64x256_S100000x256_1_0_0_1_n_n rfl rfl
    lhs_main_v66_0 lhs_main_v66_1 rhs_main_v66_0 rhs_main_v66_1 none .single _ _ _).symm

end Cert.Gcn.Bridge

end
-- ==== Proof.KChain.lean ====
/-
  The idealized kernel's buffers at its segment boundaries, as the reference's stages of the launch arguments.

  Walking @main's twelve segments in order: after the first three host stretches the edge lists and the per-edge
  coefficient are the reference's; region 0 leaves the first transform (the product of the features with W1) in its
  output; the next stretch gathers, scales and scatter-adds it; region 1 adds the bias and clamps; region 2 multiplies by
  W2; and so on through the second aggregation, region 3, the head's bias rows, region 4 and the tail. At every boundary
  each buffer a later segment reads either holds a stage of the reference (named by the reference's own stage
  functions of the arguments) or still holds what an earlier boundary left there, because no segment in between writes
  it. The last line: the result buffer at the last boundary holds the reference's result stage.
-/
import proofs.«178158_j10213432229995_1_alg».proof.Proof.Gen.KernelIdeal.Frame
import proofs.«178158_j10213432229995_1_alg».proof.Proof.LibDense
import proofs.«178158_j10213432229995_1_alg».proof.Proof.KHost
import proofs.«178158_j10213432229995_1_alg».proof.Proof.KProduct0
import proofs.«178158_j10213432229995_1_alg».proof.Proof.KBiasRelu1
import proofs.«178158_j10213432229995_1_alg».proof.Proof.KProduct2
import proofs.«178158_j10213432229995_1_alg».proof.Proof.KBiasRelu3
import proofs.«178158_j10213432229995_1_alg».proof.Proof.KHead4
import proofs.«178158_j10213432229995_1_alg».proof.Proof.Bridge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Idealize.ShloMosaic.StableHlo

variable (m : (ℓ : Loc nD τ sig) → Buf (Elt Ideal) ℓ) (ρ : Dev nD → PrngReg) (c : Dev nD)

/-! ## Up to region 0: the edge lists and the per-edge coefficient; the arguments as launched -/

theorem W3_arg0 : W3 m ρ c (Proc.devRef .tc main_arg0) = (m ((c.tc : Thread nD τ).loc main_arg0)) :=
  (after_of_writes_sub hostOps0_2 _ wr02 (by decide)).trans ((after_of_writes_sub hostOps0_1 _ wr01 (by decide)).trans
    ((after_of_writes_sub hostOps0 _ wr0 (by decide)).trans rfl))
theorem W3_arg2 : W3 m ρ c (Proc.devRef .tc main_arg2) = (m ((c.tc : Thread nD τ).loc main_arg2)) :=
  (after_of_writes_sub hostOps0_2 _ wr02 (by decide)).trans ((after_of_writes_sub hostOps0_1 _ wr01 (by decide)).trans
    ((after_of_writes_sub hostOps0 _ wr0 (by decide)).trans rfl))
theorem W3_arg3 : W3 m ρ c (Proc.devRef .tc main_arg3) = (m ((c.tc : Thread nD τ).loc main_arg3)) :=
  (after_of_writes_sub hostOps0_2 _ wr02 (by decide)).trans ((after_of_writes_sub hostOps0_1 _ wr01 (by decide)).trans
    ((after_of_writes_sub hostOps0 _ wr0 (by decide)).trans rfl))
theorem W3_arg4 : W3 m ρ c (Proc.devRef .tc main_arg4) = (m ((c.tc : Thread nD τ).loc main_arg4)) :=
  (after_of_writes_sub hostOps0_2 _ wr02 (by decide)).trans ((after_of_writes_sub hostOps0_1 _ wr01 (by decide)).trans
    ((after_of_writes_sub hostOps0 _ wr0 (by decide)).trans rfl))
theorem W3_arg5 : W3 m ρ c (Proc.devRef .tc main_arg5) = (m ((c.tc : Thread nD τ).loc main_arg5)) :=
  (after_of_writes_sub hostOps0_2 _ wr02 (by decide)).trans ((after_of_writes_sub hostOps0_1 _ wr01 (by decide)).trans
    ((after_of_writes_sub hostOps0 _ wr0 (by decide)).trans rfl))
theorem W3_arg6 : W3 m ρ c (Proc.devRef .tc main_arg6) = (m ((c.tc : Thread nD τ).loc main_arg6)) :=
  (after_of_writes_sub hostOps0_2 _ wr02 (by decide)).trans ((after_of_writes_sub hostOps0_1 _ wr01 (by decide)).trans
    ((after_of_writes_sub hostOps0 _ wr0 (by decide)).trans rfl))
theorem W3_arg7 : W3 m ρ c (Proc.devRef .tc main_arg7) = (m ((c.tc : Thread nD τ).loc main_arg7)) :=
  (after_of_writes_sub hostOps0_2 _ wr02 (by decide)).trans ((after_of_writes_sub hostOps0_1 _ wr01 (by decide)).trans
    ((after_of_writes_sub hostOps0 _ wr0 (by decide)).trans rfl))
theorem W3_arg8 : W3 m ρ c (Proc.devRef .tc main_arg8) = (m ((c.tc : Thread nD τ).loc main_arg8)) :=
  (after_of_writes_sub hostOps0_2 _ wr02 (by decide)).trans ((after_of_writes_sub hostOps0_1 _ wr01 (by decide)).trans
    ((after_of_writes_sub hostOps0 _ wr0 (by decide)).trans rfl))
theorem W3_arg9 : W3 m ρ c (Proc.devRef .tc main_arg9) = (m ((c.tc : Thread nD τ).loc main_arg9)) :=
  (after_of_writes_sub hostOps0_2 _ wr02 (by decide)).trans ((after_of_writes_sub hostOps0_1 _ wr01 (by decide)).trans
    ((after_of_writes_sub hostOps0 _ wr0 (by decide)).trans rfl))

theorem W1_v3 : W1 m ρ c (Proc.devRef .tc main_v3) = Cert.ReferenceIdeal.Read.val_main_v3 (m ((c.tc : Thread nD τ).loc main_arg1)) := h0_v3 (W0 m ρ c)
theorem W1_v6 : W1 m ρ c (Proc.devRef .tc main_v6) = Cert.ReferenceIdeal.Read.val_main_v6 (m ((c.tc : Thread nD τ).loc main_arg1)) := h0_v6 (W0 m ρ c)
theorem W1_v12 : W1 m ρ c (Proc.devRef .tc main_v12) = Cert.ReferenceIdeal.Read.val_main_v12 (m ((c.tc : Thread nD τ).loc main_arg1)) := h0_v12 (W0 m ρ c)
theorem W1_v13 : W1 m ρ c (Proc.devRef .tc main_v13) = Cert.ReferenceIdeal.Read.val_main_v13 (m ((c.tc : Thread nD τ).loc main_arg1)) := h0_v13 (W0 m ρ c)
theorem W1_cst2 : W1 m ρ c (Proc.devRef .tc main_cst_2) = Cert.ReferenceIdeal.Read.val_main_cst_2 (F := Ideal) := h0_cst2 (W0 m ρ c)
theorem W2_v3 : W2 m ρ c (Proc.devRef .tc main_v3) = Cert.ReferenceIdeal.Read.val_main_v3 (m ((c.tc : Thread nD τ).loc main_arg1)) :=
  (after_of_writes_sub hostOps0_1 _ wr01 (by decide)).trans (W1_v3 m ρ c)
theorem W2_v6 : W2 m ρ c (Proc.devRef .tc main_v6) = Cert.ReferenceIdeal.Read.val_main_v6 (m ((c.tc : Thread nD τ).loc main_arg1)) :=
  (after_of_writes_sub hostOps0_1 _ wr01 (by decide)).trans (W1_v6 m ρ c)
theorem W2_v14 : W2 m ρ c (Proc.devRef .tc main_v14) = Cert.ReferenceIdeal.Read.val_main_v14 (m ((c.tc : Thread nD τ).loc main_arg1)) :=
  h01_v14 (W1 m ρ c) _ (W1_v12 m ρ c) (W1_v13 m ρ c) (W1_cst2 m ρ c)
theorem W3_v3 : W3 m ρ c (Proc.devRef .tc main_v3) = Cert.ReferenceIdeal.Read.val_main_v3 (m ((c.tc : Thread nD τ).loc main_arg1)) :=
  (after_of_writes_sub hostOps0_2 _ wr02 (by decide)).trans (W2_v3 m ρ c)
theorem W3_v6 : W3 m ρ c (Proc.devRef .tc main_v6) = Cert.ReferenceIdeal.Read.val_main_v6 (m ((c.tc : Thread nD τ).loc main_arg1)) :=
  (after_of_writes_sub hostOps0_2 _ wr02 (by decide)).trans (W2_v6 m ρ c)
theorem W3_v29 : W3 m ρ c (Proc.devRef .tc main_v29) = Cert.ReferenceIdeal.Read.val_main_v29 (m ((c.tc : Thread nD τ).loc main_arg1)) :=
  h02_v29 (W2 m ρ c) _ (W2_v14 m ρ c) (W2_v3 m ρ c) (W2_v6 m ρ c)

/-! ## Region 0: the first transform -/

theorem W4_v30 : W4 m ρ c (Proc.devRef .tc main_v30) = Cert.ReferenceIdeal.Read.val_main_v30 (m ((c.tc : Thread nD τ).loc main_arg0)) (m ((c.tc : Thread nD τ).loc main_arg2)) :=
  (W4_arr m ρ c 2).trans ((final0 (V3 m ρ) c).trans
    ((congrArg₂ (fun (a : S100000x64.Idx → EReal) (b : S64x64.Idx → EReal) => Cert.Dense.mm (R := 100000) (K := 64) (C := 64) a b)
      (W3_arg0 m ρ c) (W3_arg2 m ρ c)).trans (Cert.Gcn.Bridge.stage_v30 _ _)))
theorem W4_v3 : W4 m ρ c (Proc.devRef .tc main_v3) = Cert.ReferenceIdeal.Read.val_main_v3 (m ((c.tc : Thread nD τ).loc main_arg1)) :=
  (W4_of_ne m ρ c main_v3 (by decide)).trans (W3_v3 m ρ c)
theorem W4_v6 : W4 m ρ c (Proc.devRef .tc main_v6) = Cert.ReferenceIdeal.Read.val_main_v6 (m ((c.tc : Thread nD τ).loc main_arg1)) :=
  (W4_of_ne m ρ c main_v6 (by decide)).trans (W3_v6 m ρ c)
theorem W4_v29 : W4 m ρ c (Proc.devRef .tc main_v29) = Cert.ReferenceIdeal.Read.val_main_v29 (m ((c.tc : Thread nD τ).loc main_arg1)) :=
  (W4_of_ne m ρ c main_v29 (by decide)).trans (W3_v29 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)
theorem W4_arg7 : W4 m ρ c (Proc.devRef .tc main_arg7) = (m ((c.tc : Thread nD τ).loc main_arg7)) :=
  (W4_of_ne m ρ c main_arg7 (by decide)).trans (W3_arg7 m ρ c)
theorem W4_arg8 : W4 m ρ c (Proc.devRef .tc main_arg8) = (m ((c.tc : Thread nD τ).loc main_arg8)) :=
  (W4_of_ne m ρ c main_arg8 (by decide)).trans (W3_arg8 m ρ c)
theorem W4_arg9 : W4 m ρ c (Proc.devRef .tc main_arg9) = (m ((c.tc : Thread nD τ).loc main_arg9)) :=
  (W4_of_ne m ρ c main_arg9 (by decide)).trans (W3_arg9 m ρ c)

/-! ## The first aggregation and the first bias row -/

theorem W5_v43 : W5 m ρ c (Proc.devRef .tc main_v43) = Cert.ReferenceIdeal.Read.val_main_v43 (m ((c.tc : Thread nD τ).loc main_arg0)) (m ((c.tc : Thread nD τ).loc main_arg1)) (m ((c.tc : Thread nD τ).loc main_arg2)) :=
  h1_v43 (W4 m ρ c) _ _ _ (W4_v30 m ρ c) (W4_v3 m ρ c) (W4_v6 m ρ c) (W4_v29 m ρ c)
theorem W5_v44 : W5 m ρ c (Proc.devRef .tc main_v44) = shapeCast S1x64 (m ((c.tc : Thread nD τ).loc main_arg3)) shapeCasts_S64_S1x64 :=
  (h1_v44 (W4 m ρ c)).trans (congrArg (fun (b : S64.Idx → EReal) => shapeCast S1x64 b shapeCasts_S64_S1x64) (W4_arg3 m ρ c))
theorem W5_v3 : W5 m ρ c (Proc.devRef .tc main_v3) = Cert.ReferenceIdeal.Read.val_main_v3 (m ((c.tc : Thread nD τ).loc main_arg1)) :=
  (after_of_writes_sub hostOps1 _ wr1 (by decide)).trans (W4_v3 m ρ c)
theorem W5_v6 : W5 m ρ c (Proc.devRef .tc main_v6) = Cert.ReferenceIdeal.Read.val_main_v6 (m ((c.tc : Thread nD τ).loc main_arg1)) :=
  (after_of_writes_sub hostOps1 _ wr1 (by decide)).trans (W4_v6 m ρ c)
theorem W5_v29 : W5 m ρ c (Proc.devRef .tc main_v29) = Cert.ReferenceIdeal.Read.val_main_v29 (m ((c.tc : Thread nD τ).loc main_arg1)) :=
  (after_of_writes_sub hostOps1 _ wr1 (by decide)).trans (W4_v29 m ρ c)
theorem W5_arg4 : W5 m ρ c (Proc.devRef .tc main_arg4) = (m ((c.tc : Thread nD τ).loc main_arg4)) :=
  (after_of_writes_sub hostOps1 _ wr1 (by decide)).trans (W4_arg4 m ρ c)
theorem W5_arg5 : W5 m ρ c (Proc.devRef .tc main_arg5) = (m ((c.tc : Thread nD τ).loc main_arg5)) :=
  (after_of_writes_sub hostOps1 _ wr1 (by decide)).trans (W4_arg5 m ρ c)
theorem W5_arg6 : W5 m ρ c (Proc.devRef .tc main_arg6) = (m ((c.tc : Thread nD τ).loc main_arg6)) :=
  (after_of_writes_sub hostOps1 _ wr1 (by decide)).trans (W4_arg6 m ρ c)
theorem W5_arg7 : W5 m ρ c (Proc.devRef .tc main_arg7) = (m ((c.tc : Thread nD τ).loc main_arg7)) :=
  (after_of_writes_sub hostOps1 _ wr1 (by decide)).trans (W4_arg7 m ρ c)
theorem W5_arg8 : W5 m ρ c (Proc.devRef .tc main_arg8) = (m ((c.tc : Thread nD τ).loc main_arg8)) :=
  (after_of_writes_sub hostOps1 _ wr1 (by decide)).trans (W4_arg8 m ρ c)
theorem W5_arg9 : W5 m ρ c (Proc.devRef .tc main_arg9) = (m ((c.tc : Thread nD τ).loc main_arg9)) :=
  (after_of_writes_sub hostOps1 _ wr1 (by decide)).trans (W4_arg9 m ρ c)

/-! ## Region 1: the first layer's output -/

theorem W6_v45 : W6 m ρ c (Proc.devRef .tc main_v45) = Cert.ReferenceIdeal.Read.val_main_v47 (m ((c.tc : Thread nD τ).loc main_arg0)) (m ((c.tc : Thread nD τ).loc main_arg1)) (m ((c.tc : Thread nD τ).loc main_arg2)) (m ((c.tc : Thread nD τ).loc main_arg3)) :=
  (W6_arr m ρ c 2).trans ((final1 (V5 m ρ) c).trans
    ((congrArg₂ (fun (a : S100000x64.Idx → EReal) (b : S1x64.Idx → EReal) => Cert.Gcn.biasRelu (R := 100000) (C := 64) a b)
      (W5_v43 m ρ c) (W5_v44 m ρ c)).trans (Cert.Gcn.Bridge.stage_v47 _ _ _ _ _)))
theorem W6_v3 : W6 m ρ c (Proc.devRef .tc main_v3) = Cert.ReferenceIdeal.Read.val_main_v3 (m ((c.tc : Thread nD τ).loc main_arg1)) :=
  (W6_of_ne m ρ c main_v3 (by decide)).trans (W5_v3 m ρ c)
theorem W6_v6 : W6 m ρ c (Proc.devRef .tc main_v6) = Cert.ReferenceIdeal.Read.val_main_v6 (m ((c.tc : Thread nD τ).loc main_arg1)) :=
  (W6_of_ne m ρ c main_v6 (by decide)).trans (W5_v6 m ρ c)
theorem W6_v29 : W6 m ρ c (Proc.devRef .tc main_v29) = Cert.ReferenceIdeal.Read.val_main_v29 (m ((c.tc : Thread nD τ).loc main_arg1)) :=
  (W6_of_ne m ρ c main_v29 (by decide)).trans (W5_v29 m ρ c)
theorem W6_arg4 : W6 m ρ c (Proc.devRef .tc main_arg4) = (m ((c.tc : Thread nD τ).loc main_arg4)) :=
  (W6_of_ne m ρ c main_arg4 (by decide)).trans (W5_arg4 m ρ c)
theorem W6_arg5 : W6 m ρ c (Proc.devRef .tc main_arg5) = (m ((c.tc : Thread nD τ).loc main_arg5)) :=
  (W6_of_ne m ρ c main_arg5 (by decide)).trans (W5_arg5 m ρ c)
theorem W6_arg6 : W6 m ρ c (Proc.devRef .tc main_arg6) = (m ((c.tc : Thread nD τ).loc main_arg6)) :=
  (W6_of_ne m ρ c main_arg6 (by decide)).trans (W5_arg6 m ρ c)
theorem W6_arg7 : W6 m ρ c (Proc.devRef .tc main_arg7) = (m ((c.tc : Thread nD τ).loc main_arg7)) :=
  (W6_of_ne m ρ c main_arg7 (by decide)).trans (W5_arg7 m ρ c)
theorem W6_arg8 : W6 m ρ c (Proc.devRef .tc main_arg8) = (m ((c.tc : Thread nD τ).loc main_arg8)) :=
  (W6_of_ne m ρ c main_arg8 (by decide)).trans (W5_arg8 m ρ c)
theorem W6_arg9 : W6 m ρ c (Proc.devRef .tc main_arg9) = (m ((c.tc : Thread nD τ).loc main_arg9)) :=
  (W6_of_ne m ρ c main_arg9 (by decide)).trans (W5_arg9 m ρ c)

/-! ## Region 2: the second transform -/

theorem W7_v46 : W7 m ρ c (Proc.devRef .tc main_v46) = Cert.ReferenceIdeal.Read.val_main_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans ((final2 (V6 m ρ) c).trans
    ((congrArg₂ (fun (a : S100000x64.Idx → EReal) (b : S64x64.Idx → EReal) => Cert.Dense.mm (R := 100000) (K := 64) (C := 64) a b)
      (W6_v45 m ρ c) (W6_arg4 m ρ c)).trans (Cert.Gcn.Bridge.stage_v48 _ _ _ _ _)))
theorem W7_v3 : W7 m ρ c (Proc.devRef .tc main_v3) = Cert.ReferenceIdeal.Read.val_main_v3 (m ((c.tc : Thread nD τ).loc main_arg1)) :=
  (W7_of_ne m ρ c main_v3 (by decide)).trans (W6_v3 m ρ c)
theorem W7_v6 : W7 m ρ c (Proc.devRef .tc main_v6) = Cert.ReferenceIdeal.Read.val_main_v6 (m ((c.tc : Thread nD τ).loc main_arg1)) :=
  (W7_of_ne m ρ c main_v6 (by decide)).trans (W6_v6 m ρ c)
theorem W7_v29 : W7 m ρ c (Proc.devRef .tc main_v29) = Cert.ReferenceIdeal.Read.val_main_v29 (m ((c.tc : Thread nD τ).loc main_arg1)) :=
  (W7_of_ne m ρ c main_v29 (by decide)).trans (W6_v29 m ρ c)
theorem W7_arg5 : W7 m ρ c (Proc.devRef .tc main_arg5) = (m ((c.tc : Thread nD τ).loc main_arg5)) :=
  (W7_of_ne m ρ c main_arg5 (by decide)).trans (W6_arg5 m ρ c)
theorem W7_arg6 : W7 m ρ c (Proc.devRef .tc main_arg6) = (m ((c.tc : Thread nD τ).loc main_arg6)) :=
  (W7_of_ne m ρ c main_arg6 (by decide)).trans (W6_arg6 m ρ c)
theorem W7_arg7 : W7 m ρ c (Proc.devRef .tc main_arg7) = (m ((c.tc : Thread nD τ).loc main_arg7)) :=
  (W7_of_ne m ρ c main_arg7 (by decide)).trans (W6_arg7 m ρ c)
theorem W7_arg8 : W7 m ρ c (Proc.devRef .tc main_arg8) = (m ((c.tc : Thread nD τ).loc main_arg8)) :=
  (W7_of_ne m ρ c main_arg8 (by decide)).trans (W6_arg8 m ρ c)
theorem W7_arg9 : W7 m ρ c (Proc.devRef .tc main_arg9) = (m ((c.tc : Thread nD τ).loc main_arg9)) :=
  (W7_of_ne m ρ c main_arg9 (by decide)).trans (W6_arg9 m ρ c)

/-! ## The second aggregation and the second bias row -/

theorem W8_v59 : W8 m ρ c (Proc.devRef .tc main_v59) = Cert.ReferenceIdeal.Read.val_main_v61 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  h3_v59 (W7 m ρ c) _ _ _ _ _ (W7_v46 m ρ c) (W7_v3 m ρ c) (W7_v6 m ρ c) (W7_v29 m ρ c)
theorem W8_v60 : W8 m ρ c (Proc.devRef .tc main_v60) = shapeCast S1x64 (m ((c.tc : Thread nD τ).loc main_arg5)) shapeCasts_S64_S1x64 :=
  (h3_v60 (W7 m ρ c)).trans (congrArg (fun (b : S64.Idx → EReal) => shapeCast S1x64 b shapeCasts_S64_S1x64) (W7_arg5 m ρ c))
theorem W8_arg6 : W8 m ρ c (Proc.devRef .tc main_arg6) = (m ((c.tc : Thread nD τ).loc main_arg6)) :=
  (after_of_writes_sub hostOps3 _ wr3 (by decide)).trans (W7_arg6 m ρ c)
theorem W8_arg7 : W8 m ρ c (Proc.devRef .tc main_arg7) = (m ((c.tc : Thread nD τ).loc main_arg7)) :=
  (after_of_writes_sub hostOps3 _ wr3 (by decide)).trans (W7_arg7 m ρ c)
theorem W8_arg8 : W8 m ρ c (Proc.devRef .tc main_arg8) = (m ((c.tc : Thread nD τ).loc main_arg8)) :=
  (after_of_writes_sub hostOps3 _ wr3 (by decide)).trans (W7_arg8 m ρ c)
theorem W8_arg9 : W8 m ρ c (Proc.devRef .tc main_arg9) = (m ((c.tc : Thread nD τ).loc main_arg9)) :=
  (after_of_writes_sub hostOps3 _ wr3 (by decide)).trans (W7_arg9 m ρ c)

/-! ## Region 3: the second layer's output -/

theorem W9_v61 : W9 m ρ c (Proc.devRef .tc main_v61) = Cert.ReferenceIdeal.Read.val_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((final3 (V8 m ρ) c).trans
    ((congrArg₂ (fun (a : S100000x64.Idx → EReal) (b : S1x64.Idx → EReal) => Cert.Gcn.biasRelu (R := 100000) (C := 64) a b)
      (W8_v59 m ρ c) (W8_v60 m ρ c)).trans (Cert.Gcn.Bridge.stage_v65 _ _ _ _ _ _ _)))
theorem W9_arg6 : W9 m ρ c (Proc.devRef .tc main_arg6) = (m ((c.tc : Thread nD τ).loc main_arg6)) :=
  (W9_of_ne m ρ c main_arg6 (by decide)).trans (W8_arg6 m ρ c)
theorem W9_arg7 : W9 m ρ c (Proc.devRef .tc main_arg7) = (m ((c.tc : Thread nD τ).loc main_arg7)) :=
  (W9_of_ne m ρ c main_arg7 (by decide)).trans (W8_arg7 m ρ c)
theorem W9_arg8 : W9 m ρ c (Proc.devRef .tc main_arg8) = (m ((c.tc : Thread nD τ).loc main_arg8)) :=
  (W9_of_ne m ρ c main_arg8 (by decide)).trans (W8_arg8 m ρ c)
theorem W9_arg9 : W9 m ρ c (Proc.devRef .tc main_arg9) = (m ((c.tc : Thread nD τ).loc main_arg9)) :=
  (W9_of_ne m ρ c main_arg9 (by decide)).trans (W8_arg9 m ρ c)

/-! ## The head's two bias rows -/

theorem W10_v62 : W10 m ρ c (Proc.devRef .tc main_v62) = shapeCast S1x256 (m ((c.tc : Thread nD τ).loc main_arg7)) shapeCasts_S256_S1x256 :=
  (h4_v62 (W9 m ρ c)).trans (congrArg (fun (b : S256.Idx → EReal) => shapeCast S1x256 b shapeCasts_S256_S1x256) (W9_arg7 m ρ c))
theorem W10_v63 : W10 m ρ c (Proc.devRef .tc main_v63) = shapeCast S1x1 (m ((c.tc : Thread nD τ).loc main_arg9)) shapeCasts_S1_S1x1 :=
  (h4_v63 (W9 m ρ c)).trans (congrArg (fun (b : S1.Idx → EReal) => shapeCast S1x1 b shapeCasts_S1_S1x1) (W9_arg9 m ρ c))
theorem W10_v61 : W10 m ρ c (Proc.devRef .tc main_v61) = Cert.ReferenceIdeal.Read.val_main_v65 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (after_of_writes_sub hostOps4 _ wr4 (by decide)).trans (W9_v61 m ρ c)
theorem W10_arg6 : W10 m ρ c (Proc.devRef .tc main_arg6) = (m ((c.tc : Thread nD τ).loc main_arg6)) :=
  (after_of_writes_sub hostOps4 _ wr4 (by decide)).trans (W9_arg6 m ρ c)
theorem W10_arg8 : W10 m ρ c (Proc.devRef .tc main_arg8) = (m ((c.tc : Thread nD τ).loc main_arg8)) :=
  (after_of_writes_sub hostOps4 _ wr4 (by decide)).trans (W9_arg8 m ρ c)

/-! ## Region 4: the head -/

theorem W11_v64 : W11 m ρ c (Proc.devRef .tc main_v64) = Cert.ReferenceIdeal.Read.val_main_v74 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W11_arr m ρ c 5).trans ((final4 (V10 m ρ) c).trans ?_)
  show Cert.Gcn.head (R := 100000) (W10 m ρ c (Proc.devRef .tc main_v61)) (W10 m ρ c (Proc.devRef .tc main_arg6)) (W10 m ρ c (Proc.devRef .tc main_v62))
    (W10 m ρ c (Proc.devRef .tc main_arg8)) (W10 m ρ c (Proc.devRef .tc main_v63)) = _
  rw [W10_v61 m ρ c, W10_arg6 m ρ c, W10_v62 m ρ c, W10_arg8 m ρ c, W10_v63 m ρ c]
  exact Cert.Gcn.Bridge.stage_v74 _ _ _ _ _ _ _ _ _ _ _ _

/-! ## The tail: the result -/

/-- The result buffer at the last boundary holds the reference's result stage of the launch arguments. -/
theorem W12_v72 : W12 m ρ c (Proc.devRef .tc main_v72) = Cert.ReferenceIdeal.Read.val_main_v82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  h5_v72 (W11 m ρ c) _ _ _ _ _ _ _ _ _ _ (W11_v64 m ρ c)

end Cert.KernelIdeal.Val

end
-- ==== Proof.lean ====
/-
  The certificate of a two-layer graph convolution with a dense head, normalised by its column norm: the Pallas kernel
  against its jnp reference, on the extended reals.

  Both programs compute, for node features x [N, 64], an edge list with self loops appended and the symmetric
  normalisation d^(-1/2) (A + I) d^(-1/2):  h1 = relu (agg (x W1) + b1),  h2 = relu (agg (h1 W2) + b2),
  o = relu (h2 F1 + f1) F2 + f2,  result = o / max (sqrt (sum o^2)) 1e-12,  where agg gathers rows at the source nodes,
  scales them per edge and adds them up at the target nodes. The kernel keeps the irregular part (the gathers and the
  scatter-adds, the degree, the final normalisation) as the same host operations as the reference, and moves the dense
  part into five pipelined regions tiled along the node axis: x W1, bias + clamp, h1 W2, bias + clamp, and the whole
  head. Tiling along the nodes never splits a contraction, and a change of float format is the identity on the
  extended reals, so each region's output array is, entry by entry, the very sum or maximum the reference's dot_general,
  add and maximum compute on the whole arrays. No law of arithmetic beyond that is used, and the precondition (finite
  inputs) is never opened.

  Kernel side: the run names the result at the last segment boundary's contents (KRun); each region's output is one
  whole-array function of the arrays it finds (KProduct0, KBiasRelu1, KProduct2, KBiasRelu3, KHead4); each host stretch
  maps the reference's stages to the reference's next stage (KHost); walking the twelve segments gives the result as
  the reference's last stage of the arguments (KChain). Reference side: its run ends at that same stage (RefRun over
  RefRead). The ideal pass rewrote nothing, so `preserves` is trivial.
-/
import proofs.«178158_j10213432229995_1_alg».proof.Defs
import proofs.«178158_j10213432229995_1_alg».proof.Proof.Gen.Kernel
import proofs.«178158_j10213432229995_1_alg».proof.Proof.Gen.Kernel.Skeleton
import proofs.«178158_j10213432229995_1_alg».proof.Proof.Gen.Kernel.Launch
import proofs.«178158_j10213432229995_1_alg».proof.Proof.Gen.Kernel.Points
import proofs.«178158_j10213432229995_1_alg».proof.Proof.Gen.Kernel.Frame
import proofs.«178158_j10213432229995_1_alg».proof.Proof.Gen.KernelIdeal
import proofs.«178158_j10213432229995_1_alg».proof.Proof.Gen.KernelIdeal.Skeleton
import proofs.«178158_j10213432229995_1_alg».proof.Proof.Gen.KernelIdeal.Launch
import proofs.«178158_j10213432229995_1_alg».proof.Proof.Gen.KernelIdeal.Points
import proofs.«178158_j10213432229995_1_alg».proof.Proof.Gen.KernelIdeal.Frame
import proofs.«178158_j10213432229995_1_alg».proof.Proof.Gen.ReferenceIdeal
import proofs.«178158_j10213432229995_1_alg».proof.Proof.Gen.Pre_finite_inputs
import proofs.«178158_j10213432229995_1_alg».proof.Proof.KRun
import proofs.«178158_j10213432229995_1_alg».proof.Proof.KChain
import proofs.«178158_j10213432229995_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's result buffer ends at
    the last boundary's contents, which are the reference's last stage of the kernel's arguments; the reference's
    result is that stage of its own arguments, which are the kernel's. -/
theorem algebraic : Cert.algebraic_KernelIdeal_ReferenceIdeal := by
  intro m ρ m' ρ' _ hagree
  refine ⟨fun c => Cert.KernelIdeal.Gen.W12 m ρ c (Proc.devRef .tc Cert.KernelIdeal.main_v72),
    Cert.KernelIdeal.Val.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [e0, e1, e2, e3, e4, e5, e6, e7, e8, e9]
  exact (Cert.KernelIdeal.Val.W12_v72 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
